-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S32768x512 : Shape := ⟨2, ![32768, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S8192x512 .f32) (main_arg1 : FVec F S32768x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  main_v8
-- ==== Kernel.lean ====
abbrev S8192x512 : Shape := ⟨2, ![8192, 512]⟩
abbrev S32768x512 : Shape := ⟨2, ![32768, 512]⟩
abbrev S_ : Shape := ⟨0, ![]⟩
abbrev S8192 : Shape := ⟨1, ![8192]⟩
abbrev S32768 : Shape := ⟨1, ![32768]⟩
abbrev S1x32768 : Shape := ⟨2, ![1, 32768]⟩
abbrev S2048x512 : Shape := ⟨2, ![2048, 512]⟩
abbrev S1024x512 : Shape := ⟨2, ![1024, 512]⟩
abbrev S2048 : Shape := ⟨1, ![2048]⟩
abbrev S1x1024 : Shape := ⟨2, ![1, 1024]⟩
abbrev S2048x1024 : Shape := ⟨2, ![2048, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S32768x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S32768x512, .f32⟩
  | .hbm, ⟨6, _⟩ => ⟨S_, .f32⟩
  | .hbm, ⟨7, _⟩ => ⟨S32768, .f32⟩
  | .hbm, ⟨8, _⟩ => ⟨S1x32768, .f32⟩
  | .hbm, ⟨9, _⟩ => ⟨S_, .f32⟩
  | .hbm, ⟨10, _⟩ => ⟨S1x32768, .f32⟩
  | .hbm, ⟨11, _⟩ => ⟨S1x32768, .f32⟩
  | .hbm, ⟨12, _⟩ => ⟨S8192x512, .bf16⟩
  | .hbm, ⟨13, _⟩ => ⟨S32768x512, .bf16⟩
  | .hbm, ⟨14, _⟩ => ⟨S8192, .f32⟩
  | .hbm, ⟨15, _⟩ => ⟨S_, .f32⟩
  | .hbm, ⟨16, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048, .f32⟩
  | .local _ .vmem, ⟨5, _⟩ => ⟨S2048, .f32⟩
  | .local _ .vmem, ⟨6, _⟩ => ⟨S1x1024, .f32⟩
  | .local _ .vmem, ⟨7, _⟩ => ⟨S1x1024, .f32⟩
  | .local _ .vmem, ⟨8, _⟩ => ⟨S2048, .f32⟩
  | .local _ .vmem, ⟨9, _⟩ => ⟨S2048, .f32⟩
  | .local _ .vmem, ⟨10, _⟩ => ⟨S2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v18 : BitVec 1 := Scalar.cmpi .eq arg1 c31_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  reducesTo_S32768x512_S32768_d1 : S32768x512.ReducesTo [1] S32768
  bcast_S32768_S1x32768_1 : S32768.BroadcastsInDim S1x32768 (![1] : Fin 1 → Fin S1x32768.rank)
  bcast_S_S1x32768 : S_.BroadcastsInDim S1x32768 (![] : Fin 0 → Fin S1x32768.rank)
  bitsLt_bf16_f32 : FTy.bits .bf16 < FTy.bits .f32
  inb_S2048_S2048_0 : ∀ a, (![0] : Fin 1 → Nat) a + S2048.size a ≤ S2048.size a
  h_S2048 : 0 < S2048.numel
  shapeCasts_S2048_S2048 : S2048.ShapeCasts S2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  reducesTo_S8192_S_d0 : S8192.ReducesTo [0] S_
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .bf16 = 32 ∨ (Rect.block (s := S32768x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S8192.size a
  hwx0_2 : ∀ i : grid0.Coords, EltTy.bits .f32 = 32 ∨ (Rect.block (s := S8192) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .f32 = 32 ∨ (Rect.block (s := S1x32768) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S8192.size a
  hwx0_4 : ∀ i : grid0.Coords, EltTy.bits .f32 = 32 ∨ (Rect.block (s := S8192) S2048.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S32768x512 : Shape := ⟨2, ![32768, 512]⟩
abbrev S_ : Shape := ⟨0, ![]⟩
abbrev S8192 : Shape := ⟨1, ![8192]⟩
abbrev S32768 : Shape := ⟨1, ![32768]⟩
abbrev S8192x32768 : Shape := ⟨2, ![8192, 32768]⟩
abbrev S8192x1 : Shape := ⟨2, ![8192, 1]⟩
abbrev S1x32768 : Shape := ⟨2, ![1, 32768]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32768x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S32768x512, .f32⟩
  | .hbm, ⟨6, _⟩ => ⟨S_, .f32⟩
  | .hbm, ⟨7, _⟩ => ⟨S32768, .f32⟩
  | .hbm, ⟨8, _⟩ => ⟨S8192x32768, .f32⟩
  | .hbm, ⟨9, _⟩ => ⟨S8192x1, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S_, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S_, .f32⟩
  | .hbm, ⟨19, _⟩ => ⟨S8192x32768, .f32⟩
  | .hbm, ⟨20, _⟩ => ⟨S8192x32768, .f32⟩
  | .hbm, ⟨21, _⟩ => ⟨S8192x32768, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S32768x512_S32768_d1 : S32768x512.ReducesTo [1] S32768
  bcast_S8192_S8192x1_0 : S8192.BroadcastsInDim S8192x1 (![0] : Fin 1 → Fin S8192x1.rank)
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  reducesTo_S8192x32768_S8192_d1 : S8192x32768.ReducesTo [1] S8192
  reducesTo_S8192_S_d0 : S8192.ReducesTo [0] S_
  dot_S8192x512_S32768x512_S8192x32768_1_1_0_0_n_n_wf : DotDims.WF S8192x512 S32768x512 S8192x32768 [1] [1] [0] [0] [] []

variable [Facts₀]

def dot_S8192x512_S32768x512_S8192x32768_1_1_0_0_n_n : DotDims S8192x512 S32768x512 S8192x32768 where
  lhsContracting := [1]
  rhsContracting := [1]
  lhsNonContracting := [0]
  rhsNonContracting := [0]
  lhsBatch := []
  rhsBatch := []
  wf := dot_S8192x512_S32768x512_S8192x32768_1_1_0_0_n_n_wf

class Facts : Prop extends Facts₀ where

variable [Facts]
-- ==== Proof.Blocks.lean ====
/-
  The windows' blocks read at an entry, and the arrays the host prepares before the kernel.

  Grid point t = 32 i + j works on rows 2048 i .. 2048 i + 2047 of the patches and on bank entries
  1024 j .. 1024 j + 1023: entry (r, k) of the row block is entry (2048 i + r, k) of the array, and likewise for the
  bank tile, the row norms and the halved bank norms.
-/
import proofs.«140508_j2585570312716_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The block index of every window at every grid point: the row tile is the point's number divided by 32, the bank
    tile its remainder. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 1) = t.val / 32
    ∧ win0_3.index t (0 : Fin 2) = 0 ∧ win0_3.index t (1 : Fin 2) = t.val % 32
    ∧ win0_4.index t (0 : Fin 1) = t.val / 32 :=
  (by decide +kernel : ∀ t : Fin grid0.N, _)

/-- The row block of the patches. -/
theorem blk0_apply (c : Dev nD) (t : Fin cfg0.N) (r : Fin 2048) (k : Fin 512) (n : Fin 8192)
    (hn : n.val = 2048 * (t.val / 32) + r.val) :
    (iblk m c 0 t : Vec F S2048x512 .bf16) (ix2 r k) = V m c main_v7 (ix2 n k) := by
  unfold iblk
  rw [View.read_apply]
  show V m c main_v7 _ = V m c main_v7 _
  refine congrArg (V m c main_v7) (funext fun a => Fin.ext ?_)
  obtain ⟨e0, e1, -⟩ := idx_facts t
  match a with
  | ⟨0, _⟩ => show win0_0.index t (0 : Fin 2) * 2048 + 1 * r.val = n.val; rw [e0, hn]; omega
  | ⟨1, _⟩ => show win0_0.index t (1 : Fin 2) * 512 + 1 * k.val = k.val; rw [e1]; omega

/-- The bank tile. -/
theorem blk1_apply (c : Dev nD) (t : Fin cfg0.N) (l : Fin 1024) (k : Fin 512) (q : Fin 32768)
    (hq : q.val = 1024 * (t.val % 32) + l.val) :
    (iblk m c 1 t : Vec F S1024x512 .bf16) (ix2 l k) = V m c main_v8 (ix2 q k) := by
  unfold iblk
  rw [View.read_apply]
  show V m c main_v8 _ = V m c main_v8 _
  refine congrArg (V m c main_v8) (funext fun a => Fin.ext ?_)
  obtain ⟨-, -, e0, e1, -⟩ := idx_facts t
  match a with
  | ⟨0, _⟩ => show win0_1.index t (0 : Fin 2) * 1024 + 1 * l.val = q.val; rw [e0, hq]; omega
  | ⟨1, _⟩ => show win0_1.index t (1 : Fin 2) * 512 + 1 * k.val = k.val; rw [e1]; omega

/-- The block of row norms. -/
theorem blk2_apply (c : Dev nD) (t : Fin cfg0.N) (r : Fin 2048) (n : Fin 8192)
    (hn : n.val = 2048 * (t.val / 32) + r.val) :
    (iblk m c 2 t : Vec F S2048 .f32) (ix1 r) = V m c main_v1 (ix1 n) := by
  unfold iblk
  rw [View.read_apply]
  show V m c main_v1 _ = V m c main_v1 _
  refine congrArg (V m c main_v1) (funext fun a => Fin.ext ?_)
  obtain ⟨-, -, -, -, e0, -⟩ := idx_facts t
  match a with
  | ⟨0, _⟩ => show win0_2.index t (0 : Fin 1) * 2048 + 1 * r.val = n.val; rw [e0, hn]; omega

/-- The tile of halved bank norms. -/
theorem blk3_apply (c : Dev nD) (t : Fin cfg0.N) (l : Fin 1024) (q : Fin 32768)
    (hq : q.val = 1024 * (t.val % 32) + l.val) :
    (iblk m c 3 t : Vec F S1x1024 .f32) (ix2 0 l) = V m c main_v6 (ix2 0 q) := by
  unfold iblk
  rw [View.read_apply]
  show V m c main_v6 _ = V m c main_v6 _
  refine congrArg (V m c main_v6) (funext fun a => Fin.ext ?_)
  obtain ⟨-, -, -, -, -, e0, e1, -⟩ := idx_facts t
  match a with
  | ⟨0, _⟩ => show win0_3.index t (0 : Fin 2) * 1 + 1 * 0 = 0; rw [e0]
  | ⟨1, _⟩ => show win0_3.index t (1 : Fin 2) * 1024 + 1 * l.val = q.val; rw [e1, hq]; omega

end Cert.KernelIdeal.Blocks

end
-- ==== Proof.Pieces.lean ====
/-
  What the kernel body leaves, case by case, as values: the running-minimum scratch after a grid point, and the output
  block at the last bank tile, as the body's arithmetic applied to the point's input blocks and the scratch it found.
-/
import proofs.«140508_j2585570312716_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- At a grid point that is neither the first nor the last of its row tile, the body leaves in the running-minimum
    scratch the minimum of what it held and this bank tile's row minima. -/
theorem sout_B (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048 .f32) (harg4 : arg4.IsWhole) (arg5 : Memref sig .tc .vmem S1x1024 .f32) (harg5 : arg5.IsWhole) (arg6 : Memref sig .tc .vmem S2048 .f32) (harg6 : arg6.IsWhole) (arg7 : Memref sig .tc .vmem S2048 .f32) (harg7 : arg7.IsWhole) (hc0 : ¬cond0_0 i) (hc1 : ¬cond0_1 i)
    (x0 : Vec F S2048x512 .bf16) (x1 : Vec F S1024x512 .bf16) (x2 : Vec F S2048 .f32) (x3 : Vec F S1x1024 .f32) (xs0 : Vec F S2048 .f32) :
    sout0_B_0 c i arg2 harg2 arg3 harg3 arg4 harg4 arg5 harg5 arg6 harg6 arg7 harg7 hc0 hc1 x0 x1 x2 x3 xs0 = k0_pay2 x0 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz1]
  simp only [View.readAt_eq_ld, harg2.read_unread, harg3.read_unread, harg4.read_unread, harg5.read_unread, harg7.read_unread,
    View.ld_unit_zero (S := S2048x512) hz2, View.ld_unit_zero (S := S1024x512) hz2, View.ld_unit_zero (S := S1x1024) hz2,
    View.ld_unit_zero (S := S2048) hz1]

/-- At the first bank tile the scratch is first filled with +inf, read back, and updated as everywhere else. -/
theorem sout_A (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048 .f32) (harg4 : arg4.IsWhole) (arg5 : Memref sig .tc .vmem S1x1024 .f32) (harg5 : arg5.IsWhole) (arg6 : Memref sig .tc .vmem S2048 .f32) (harg6 : arg6.IsWhole) (arg7 : Memref sig .tc .vmem S2048 .f32) (harg7 : arg7.IsWhole) (hc0 : cond0_0 i) (hc1 : ¬cond0_1 i)
    (x0 : Vec F S2048x512 .bf16) (x1 : Vec F S1024x512 .bf16) (x2 : Vec F S2048 .f32) (x3 : Vec F S1x1024 .f32) :
    sout0_A_0 c i arg2 harg2 arg3 harg3 arg4 harg4 arg5 harg5 arg6 harg6 arg7 harg7 hc0 hc1 x0 x1 x2 x3 = k0_pay2 x0 x1 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048) hz1, View.readCov_unit_zero (S := S2048) _ hz1]
  simp only [View.readAt_eq_ld, harg2.read_unread, harg3.read_unread, harg4.read_unread, harg5.read_unread, harg7.read_unread,
    View.ld_unit_zero (S := S2048x512) hz2, View.ld_unit_zero (S := S1024x512) hz2, View.ld_unit_zero (S := S1x1024) hz2,
    View.ld_unit_zero (S := S2048) hz1]

/-- At the last bank tile the scratch is updated in the same way ... -/
theorem sout_C (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048 .f32) (harg4 : arg4.IsWhole) (arg5 : Memref sig .tc .vmem S1x1024 .f32) (harg5 : arg5.IsWhole) (arg6 : Memref sig .tc .vmem S2048 .f32) (harg6 : arg6.IsWhole) (arg7 : Memref sig .tc .vmem S2048 .f32) (harg7 : arg7.IsWhole) (hc0 : ¬cond0_0 i) (hc1 : cond0_1 i)
    (x0 : Vec F S2048x512 .bf16) (x1 : Vec F S1024x512 .bf16) (x2 : Vec F S2048 .f32) (x3 : Vec F S1x1024 .f32) (xs0 : Vec F S2048 .f32) :
    sout0_C_0 c i arg2 harg2 arg3 harg3 arg4 harg4 arg5 harg5 arg6 harg6 arg7 harg7 hc0 hc1 x0 x1 x2 x3 xs0 = k0_pay2 x0 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz1]
  simp only [View.readAt_eq_ld, harg2.read_unread, harg3.read_unread, harg4.read_unread, harg5.read_unread, harg7.read_unread,
    View.ld_unit_zero (S := S2048x512) hz2, View.ld_unit_zero (S := S1024x512) hz2, View.ld_unit_zero (S := S1x1024) hz2,
    View.ld_unit_zero (S := S2048) hz1]

/-- ... and the output block is computed from the row norms and the updated scratch. -/
theorem out_C (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048 .f32) (harg4 : arg4.IsWhole) (arg5 : Memref sig .tc .vmem S1x1024 .f32) (harg5 : arg5.IsWhole) (arg6 : Memref sig .tc .vmem S2048 .f32) (harg6 : arg6.IsWhole) (arg7 : Memref sig .tc .vmem S2048 .f32) (harg7 : arg7.IsWhole) (hc0 : ¬cond0_0 i) (hc1 : cond0_1 i)
    (x0 : Vec F S2048x512 .bf16) (x1 : Vec F S1024x512 .bf16) (x2 : Vec F S2048 .f32) (x3 : Vec F S1x1024 .f32) (xs0 : Vec F S2048 .f32) :
    out0_C_4 c i arg2 harg2 arg3 harg3 arg4 harg4 arg5 harg5 arg6 harg6 arg7 harg7 hc0 hc1 x0 x1 x2 x3 xs0 = k0_pay3 x2 (k0_pay2 x0 x1 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz1, View.readCov_unit_zero (S := S2048) _ hz1]
  simp only [View.readAt_eq_ld, harg2.read_unread, harg3.read_unread, harg4.read_unread, harg5.read_unread, harg7.read_unread,
    View.ld_unit_zero (S := S2048x512) hz2, View.ld_unit_zero (S := S1024x512) hz2, View.ld_unit_zero (S := S1x1024) hz2,
    View.ld_unit_zero (S := S2048) hz1]

end Cert.KernelIdeal.Pieces

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibRowMin.lean ====
/-
  A row minimum read at a row, on the extended reals.

  A reduction by `min` along one axis, started from the top element, is at each kept index the infimum over the
  coordinates of the dropped axis: for the vector unit's multi_reduction by minimumf (`multiReduction_minimumf_inf`)
  and for the host's reduce with a minimum body (`hostReduce_minimumf_inf`), at any rank, axis and extents. Along the
  second axis of a matrix the index over row r with coordinate l inserted is (r, l) (`lift_row`).
-/
import Idealize.ShloMosaic.PureOps.Ideal
import Idealize.ShloMosaic.PureOps.Ideal.Laws
import Idealize.ShloMosaic.PureOps.Reduce
import Idealize.ShloMosaic.Lib.ValueIdx

noncomputable section

namespace Cert.LibRowMin

open Idealize.ShloMosaic

variable {φ : FTy}

/-- A fold of `min` from the top element over a finite type is the infimum of the family. -/
theorem fold_min_top {ι : Type} [Fintype ι] (f : ι → EReal) :
    (Finset.univ : Finset ι).fold min (⊤ : EReal) f = Finset.univ.inf f := rfl

/-- The vector unit's minimum along one axis, from the accumulator's value: the fold of `min` over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Started from a word that denotes the top element, it is the infimum over the dropped axis. -/
theorem multiReduction_minimumf_inf {s t : Shape} {a : Fin s.rank} (src : FVec Ideal s φ) (acc : BitVec φ.bits)
    (h : s.Reduces [a] t) (hφ : FKind.Formats φ) (hacc : acc = FKind.minimumf.neutral φ hφ) (j : t.Idx)
    (htop : FloatOps.ofBits (F := Ideal) φ acc = (⊤ : EReal)) :
    multiReduction .minimumf [a] t src acc h hφ hacc j
      = (Finset.univ : Finset (Fin (s.size a))).inf fun k => src (h.lift j k) := by
  rw [multiReduction_minimumf_single, htop]; rfl

/-- The host's reduce with a minimum body along one axis, from an initial value that is the top element: the infimum
    over the dropped axis. -/
theorem hostReduce_minimumf_inf {s t u : Shape} {a : Fin s.rank} (x : FVec Ideal s φ) (init : u.Idx → Ideal φ)
    (h' : s.ReducesTo [a] t) (h : s.Reduces [a] t) (hu : 0 < u.numel) (j : t.Idx)
    (htop : init (Shape.Idx.first hu) = (⊤ : EReal)) :
    Host.reduce (FloatOps.minimumf (F := Ideal) (φ := φ)) x init h' hu j
      = (Finset.univ : Finset (Fin (s.size a))).inf fun k => x (h.lift j k) := by
  rw [Host.reduce_eq_fold_single _ x init h' h hu j, htop]; rfl

/-- Along the second axis of a matrix, the index over row `r` with coordinate `l` inserted is `(r, l)`. -/
theorem lift_row {a b : Nat} (h : Shape.Reduces ⟨2, ![a, b]⟩ [1] ⟨1, ![a]⟩) (r : Fin a) (l : Fin b) :
    h.lift (ValueIdx.ix1 r) l = ValueIdx.ix2 r l :=
  funext fun c => Fin.ext (by
    match c with
    | ⟨0, _⟩ => rfl
    | ⟨1, _⟩ => rfl)

end Cert.LibRowMin

end
-- ==== Proof.Spec.lean ====
/-
  The nearest-neighbour distance of one row, over the extended reals.

  For a row with squared norm p, a bank entry with squared norm s and their inner product c, the squared distance is
  p + s - 2c. The kernel instead keeps x = s/2 - c, takes its minimum over the bank, and only then forms
  sqrt(max(p + 2x, 0)). Two facts make the two computations equal:

  * x ↦ sqrt(max(p + 2x, 0)) is monotone and sends the top element to itself (p a real number), so it commutes with
    the infimum of a finite family;
  * for real numbers p + 2(s/2 - c) = (p + s) - 2c.

  The minimum over the bank is taken tile by tile (32 tiles of 1024 entries): the running minimum after tile j is the
  infimum over the first 1024(j+1) entries.
-/
import Idealize.ShloMosaic.PureOps.Ideal
import Idealize.ShloMosaic.PureOps.Ideal.Laws
import Idealize.ShloMosaic.Lib.ValueIdx
import Mathlib.Tactic.Ring
import Mathlib.Tactic.Linarith

noncomputable section

namespace Cert.Spec

open Idealize.ShloMosaic

/-! ## The three literals -/

/-- The single-precision pattern of 2.0 denotes the real number 2. -/
theorem two_word : Ideal.ofBits .f32 0x40000000#32 = ((2 : ℝ) : EReal) := by
  simp [Ideal.ofBits, Ideal.ieee, -EReal.coe_mul]; norm_num

/-- The single-precision pattern of 0.5 denotes the real number 1/2. -/
theorem half_word : Ideal.ofBits .f32 0x3F000000#32 = (((1 : ℝ) / 2 : ℝ) : EReal) := by
  simp [Ideal.ofBits, Ideal.ieee, -EReal.coe_mul]; norm_num

/-- The single-precision pattern of +inf denotes the top element. -/
theorem top_word : Ideal.ofBits .f32 0x7F800000#32 = (⊤ : EReal) := by
  simp [Ideal.ofBits, Ideal.ieee]

/-! ## The square root is monotone -/

theorem sqrt_mono : Monotone Ideal.sqrt := by
  intro x y hxy
  induction x using EReal.rec with
  | bot => exact bot_le
  | top =>
    obtain rfl : y = ⊤ := top_le_iff.1 hxy
    exact le_rfl
  | coe a =>
    induction y using EReal.rec with
    | bot => exact absurd hxy (by simp)
    | top => exact le_top
    | coe b =>
      have hab : a ≤ b := EReal.coe_le_coe_iff.1 hxy
      show (if a < 0 then (⊥ : EReal) else (Real.sqrt a : EReal)) ≤ (if b < 0 then (⊥ : EReal) else (Real.sqrt b : EReal))
      by_cases ha : a < 0
      · rw [if_pos ha]; exact bot_le
      · rw [if_neg ha, if_neg (by linarith)]
        exact EReal.coe_le_coe_iff.2 (Real.sqrt_le_sqrt hab)

/-! ## The distance from the half-distance -/

/-- The distance of a row of squared norm `p` from the quantity `x = s/2 - c`: sqrt(max(p + 2x, 0)). -/
def dist (p x : EReal) : EReal := Ideal.sqrt (max (p + ((2 : ℝ) : EReal) * x) 0)

theorem dist_mono (p : EReal) : Monotone (dist p) := by
  intro x y hxy
  unfold dist
  refine sqrt_mono (max_le_max ?_ le_rfl)
  exact add_le_add le_rfl (mul_le_mul_of_nonneg_left hxy (EReal.coe_nonneg.2 (by norm_num)))

theorem dist_top (p : ℝ) : dist (p : EReal) ⊤ = ⊤ := by
  unfold dist
  rw [EReal.mul_top_of_pos (EReal.coe_pos.2 (by norm_num)), EReal.add_top_of_ne_bot (EReal.coe_ne_bot p),
    max_eq_left le_top]
  rfl

/-- The map commutes with the infimum of a finite family. -/
theorem dist_inf {ι : Type} (p : ℝ) (s : Finset ι) (f : ι → EReal) :
    dist (p : EReal) (s.inf f) = s.inf fun k => dist (p : EReal) (f k) :=
  Finset.comp_inf_eq_inf_comp_of_is_total (dist (p : EReal)) (dist_mono _) (dist_top p)

/-- For real numbers the two spellings of the squared distance agree. -/
theorem dist_join (p s c : ℝ) :
    dist (p : EReal) ((((1 : ℝ) / 2 : ℝ) : EReal) * (s : EReal) - (c : EReal))
      = Ideal.sqrt (max (((p : EReal) + (s : EReal)) - ((2 : ℝ) : EReal) * (c : EReal)) 0) := by
  unfold dist
  congr 2
  rw [← EReal.coe_mul, ← EReal.coe_sub, ← EReal.coe_mul, ← EReal.coe_add, ← EReal.coe_add, ← EReal.coe_mul,
    ← EReal.coe_sub]
  congr 1
  ring

/-! ## The minimum over the bank, tile by tile -/

/-- The infimum of `f` over the first `1024 (j + 1)` entries. -/
def upTo (f : Fin 32768 → EReal) (j : ℕ) : EReal :=
  (Finset.univ.filter fun k : Fin 32768 => k.val < 1024 * (j + 1)).inf f

/-- The infimum of `f` over tile `j`. -/
def tile (f : Fin 32768 → EReal) (j : ℕ) (hj : j < 32) : EReal :=
  Finset.univ.inf fun l : Fin 1024 => f ⟨1024 * j + l.val, by have := l.isLt; omega⟩

theorem upTo_zero (f : Fin 32768 → EReal) : upTo f 0 = min ⊤ (tile f 0 (by norm_num)) := by
  rw [min_eq_right le_top]
  unfold upTo tile
  refine le_antisymm (Finset.le_inf fun l _ => Finset.inf_le (Finset.mem_filter.2 ⟨Finset.mem_univ _, ?_⟩))
    (Finset.le_inf fun k hk => ?_)
  · have := l.isLt; show 1024 * 0 + l.val < 1024 * (0 + 1); omega
  · have hk' : k.val < 1024 * (0 + 1) := (Finset.mem_filter.1 hk).2
    refine (Finset.inf_le (Finset.mem_univ (⟨k.val, by omega⟩ : Fin 1024))).trans_eq (congrArg f (Fin.ext ?_))
    show 1024 * 0 + k.val = k.val; omega

theorem upTo_succ (f : Fin 32768 → EReal) (j : ℕ) (hj : j + 1 < 32) :
    upTo f (j + 1) = min (upTo f j) (tile f (j + 1) hj) := by
  unfold upTo tile
  refine le_antisymm (le_min ?_ ?_) (Finset.le_inf fun k hk => ?_)
  · exact Finset.inf_mono (fun k hk => Finset.mem_filter.2 ⟨Finset.mem_univ _, by
      have := (Finset.mem_filter.1 hk).2; omega⟩)
  · refine Finset.le_inf fun l _ => Finset.inf_le (Finset.mem_filter.2 ⟨Finset.mem_univ _, ?_⟩)
    have := l.isLt; show 1024 * (j + 1) + l.val < 1024 * (j + 1 + 1); omega
  · have hk' : k.val < 1024 * (j + 1 + 1) := (Finset.mem_filter.1 hk).2
    by_cases hlt : k.val < 1024 * (j + 1)
    · exact (min_le_left _ _).trans (Finset.inf_le (Finset.mem_filter.2 ⟨Finset.mem_univ _, hlt⟩))
    · refine (min_le_right _ _).trans ?_
      refine (Finset.inf_le (Finset.mem_univ (⟨k.val - 1024 * (j + 1), by omega⟩ : Fin 1024))).trans_eq
        (congrArg f (Fin.ext ?_))
      show 1024 * (j + 1) + (k.val - 1024 * (j + 1)) = k.val; omega

theorem upTo_last (f : Fin 32768 → EReal) : upTo f 31 = Finset.univ.inf f := by
  unfold upTo
  rw [Finset.filter_true_of_mem fun k _ => by have := k.isLt; omega]

end Cert.Spec

end
-- ==== Proof.Payload.lean ====
/-
  The body's arithmetic read at a row, on the extended reals.

  * The block stored at the first bank tile is +inf everywhere.
  * The scratch update: at row r, the minimum of the scratch's entry and the infimum over the tile's 1024 lanes l of
    h(0, l) - sum over the 512 features c of a(r, c) * b(l, c)   (a the row block, b the bank tile, h the halved norms).
  * The output block: at row r, sqrt(max(p(r) + 2 * acc(r), 0)).
-/
import proofs.«140508_j2585570312716_2_alg».proof.Proof.Gen.KernelIdeal.Skeleton
import proofs.«140508_j2585570312716_2_alg».proof.Proof.LibDotsNT
import proofs.«140508_j2585570312716_2_alg».proof.Proof.LibRowMin
import proofs.«140508_j2585570312716_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-- The block of +inf. -/
theorem pay1_apply (r : Fin 2048) : k0_pay1 (F := Ideal) (ix1 r) = (⊤ : EReal) := by
  unfold k0_pay1
  simp only [shapeCast_self]
  exact Cert.Spec.top_word

/-- One entry of the half-distance tile: the halved bank norm less the inner product of a row and a bank entry. -/
theorem halfdist_apply (x0 : Vec Ideal S2048x512 .bf16) (x1 : Vec Ideal S1024x512 .bf16) (x3 : Vec Ideal S1x1024 .f32)
    (r : Fin 2048) (l : Fin 1024) (j : S2048x1024.Idx) (hj : j = ix2 r l) :
    (subf (F := Ideal) (broadcastTo S2048x1024 x3 Facts₀.broadcasts_S1x1024_S2048x1024)
      (matmul (F := Ideal) (φ₁ := .bf16) (φ₂ := .bf16) dot_S2048x512_S1024x512_S2048x1024_1_1_0_0_n_n none x0 x1
        (constant (F := Ideal) S2048x1024 .f32 0x00000000#32)) j : EReal)
      = x3 (ix2 0 l) - ∑ c : Fin 512, x0 (ix2 r c) * x1 (ix2 l c) := by
  subst hj
  refine (subf_apply _ _ (ix2 r l)).trans ?_
  congr 1
  · exact broadcastTo_apply x3 _ (ix2 r l) (ix2 0 l) (fun a => by
      match a with
      | ⟨0, _⟩ => rfl
      | ⟨1, _⟩ => rfl)
  · exact Cert.LibDotsNT.nt_matmul_zero_apply dot_S2048x512_S1024x512_S2048x1024_1_1_0_0_n_n rfl rfl rfl rfl rfl rfl none
      x0 x1 r l

/-- The scratch update at a row. -/
theorem pay2_apply (x0 : Vec Ideal S2048x512 .bf16) (x1 : Vec Ideal S1024x512 .bf16) (x3 : Vec Ideal S1x1024 .f32)
    (xs : Vec Ideal S2048 .f32) (r : Fin 2048) :
    k0_pay2 (F := Ideal) x0 x1 x3 xs (ix1 r)
      = min (xs (ix1 r)) (Finset.univ.inf fun l : Fin 1024 => x3 (ix2 0 l) - ∑ c : Fin 512, x0 (ix2 r c) * x1 (ix2 l c)) := by
  unfold k0_pay2
  simp only [shapeCast_self]
  refine (minimumf_apply _ _ (ix1 r)).trans ?_
  refine congrArg (min (xs (ix1 r))) ?_
  refine (Cert.LibRowMin.multiReduction_minimumf_inf _ _ _ _ _ (ix1 r) Cert.Spec.top_word).trans ?_
  exact Finset.inf_congr rfl fun l _ => halfdist_apply x0 x1 x3 r l _ (Cert.LibRowMin.lift_row _ r l)

/-- The output block at a row. -/
theorem pay3_apply (x2 : Vec Ideal S2048 .f32) (xs : Vec Ideal S2048 .f32) (r : Fin 2048) :
    k0_pay3 (F := Ideal) x2 xs (ix1 r) = Cert.Spec.dist (x2 (ix1 r)) (xs (ix1 r)) := by
  unfold k0_pay3 Cert.Spec.dist
  simp only [shapeCast_self]
  show Ideal.sqrt (max (x2 (ix1 r) + Ideal.ofBits .f32 0x40000000#32 * xs (ix1 r)) (Ideal.ofBits .f32 0x00000000#32)) = _
  rw [Cert.Spec.two_word, Ideal.ofBits_zero_f32]

end Cert.KernelIdeal.Payload

end
-- ==== Proof.Accum.lean ====
/-
  The running minimum over the grid, and the array the kernel writes.

  Write a(n, k) for the half-distance of row n and bank entry k: the halved squared norm of the bank entry less their
  inner product. After grid point t = 32 i + j the scratch holds, at row r, the infimum of a(2048 i + r, k) over the
  bank entries k < 1024 (j + 1): by induction on the point, the first bank tile starting from +inf. At j = 31 that is
  the infimum over the whole bank, and the block written back holds sqrt(max(p + 2 inf, 0)) with p the row's squared
  norm. The four written blocks tile the result array.
-/
import proofs.«140508_j2585570312716_2_alg».proof.Proof.Blocks
import proofs.«140508_j2585570312716_2_alg».proof.Proof.Pieces
import proofs.«140508_j2585570312716_2_alg».proof.Proof.Payload
import proofs.«140508_j2585570312716_2_alg».proof.Proof.Spec

set_option maxRecDepth 16384

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What each case leaves, at a grid point -/

theorem scratch_A (c : Dev nD) (t : Fin cfg0.N) (h0 : t.val % 32 = 0) (h1 : ¬t.val % 32 = 31) :
    (outsAt0 m c t.val t.isLt).2 = k0_pay2 (iblk m c 0 t) (iblk m c 1 t) (iblk m c 3 t) (k0_pay1 (F := Ideal)) := by
  rw [outsAt0_A m c t h0 h1]
  dsimp only
  exact Pieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

theorem scratch_B (c : Dev nD) (t : Fin cfg0.N) (h0 : ¬t.val % 32 = 0) (h1 : ¬t.val % 32 = 31) :
    (outsAt0 m c t.val t.isLt).2 = k0_pay2 (iblk m c 0 t) (iblk m c 1 t) (iblk m c 3 t)
      (outsAt0 m c (t.val - 1) (Nat.lt_of_le_of_lt (Nat.sub_le _ _) t.isLt)).2 := by
  rw [outsAt0_B m c t h0 h1]
  dsimp only
  exact Pieces.sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
    (iblk m c 0 t) (iblk m c 1 t) (iblk m c 2 t) (iblk m c 3 t)
    (outsAt0 m c (t.val - 1) (Nat.lt_of_le_of_lt (Nat.sub_le _ _) t.isLt)).2

theorem scratch_C (c : Dev nD) (t : Fin cfg0.N) (h0 : ¬t.val % 32 = 0) (h1 : t.val % 32 = 31) :
    (outsAt0 m c t.val t.isLt).2 = k0_pay2 (iblk m c 0 t) (iblk m c 1 t) (iblk m c 3 t)
      (outsAt0 m c (t.val - 1) (Nat.lt_of_le_of_lt (Nat.sub_le _ _) t.isLt)).2 := by
  rw [outsAt0_C m c t h0 h1]
  dsimp only
  exact Pieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

theorem out_C_eq (c : Dev nD) (t : Fin cfg0.N) (h0 : ¬t.val % 32 = 0) (h1 : t.val % 32 = 31) :
    (outsAt0 m c t.val t.isLt).1 = k0_pay3 (iblk m c 2 t) (outsAt0 m c t.val t.isLt).2 := by
  rw [scratch_C m c t h0 h1, outsAt0_C m c t h0 h1]
  dsimp only
  exact Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

/-! ## The half-distance, and the invariant -/

/-- The four arrays the kernel is launched on, as the host left them: the patches and the bank (both narrowed to bf16),
    the patches' squared row norms, the bank's halved squared row norms. -/
def patchArr (c : Dev nD) : S8192x512.Idx → EReal := V m c main_v7
def bankArr (c : Dev nD) : S32768x512.Idx → EReal := V m c main_v8
def normArr (c : Dev nD) : S8192.Idx → EReal := V m c main_v1
def halfArr (c : Dev nD) : S1x32768.Idx → EReal := V m c main_v6

/-- The half-distance of row `n` and bank entry `k`. -/
def halfDist (c : Dev nD) (n : Fin 8192) (k : Fin 32768) : EReal :=
  halfArr m c (ix2 0 k) - ∑ cc : Fin 512, patchArr m c (ix2 n cc) * bankArr m c (ix2 k cc)

/-- The row of the patches that row `r` of grid point `n`'s block is. -/
def rowOf (n : ℕ) (hn : n < cfg0.N) (r : Fin 2048) : Fin 8192 :=
  ⟨2048 * (n / 32) + r.val, by have hN : n < 128 := lt_of_lt_of_eq hn (show cfg0.N = 128 from N_0); have := r.isLt; omega⟩

/-- The bank tile's row minima at a grid point are the half-distances' infimum over tile `j`. -/
theorem tile_eq (c : Dev nD) (t : Fin cfg0.N) (r : Fin 2048) (j : ℕ) (hj : j < 32) (e : t.val % 32 = j)
    (x0 : Vec Ideal S2048x512 .bf16) (x1 : Vec Ideal S1024x512 .bf16) (x3 : Vec Ideal S1x1024 .f32)
    (hx0 : x0 = iblk m c 0 t) (hx1 : x1 = iblk m c 1 t) (hx3 : x3 = iblk m c 3 t) :
    (Finset.univ.inf fun l : Fin 1024 => x3 (ix2 0 l) - ∑ cc : Fin 512, x0 (ix2 r cc) * x1 (ix2 l cc))
      = Cert.Spec.tile (halfDist m c (rowOf t.val t.isLt r)) j hj := by
  subst e hx0 hx1 hx3
  unfold Cert.Spec.tile halfDist patchArr bankArr halfArr
  refine Finset.inf_congr rfl fun l _ => ?_
  have e3 := Blocks.blk3_apply m c t l ⟨1024 * (t.val % 32) + l.val, by have := l.isLt; omega⟩ rfl
  have e0 := fun cc => Blocks.blk0_apply m c t r cc (rowOf t.val t.isLt r) rfl
  have e1 := fun cc => Blocks.blk1_apply m c t l cc ⟨1024 * (t.val % 32) + l.val, by have := l.isLt; omega⟩ rfl
  exact congrArg₂ (· - ·) e3 (Finset.sum_congr rfl fun cc _ => congrArg₂ (· * ·) (e0 cc) (e1 cc))

/-- At the first bank tile of a row tile. -/
theorem scratch_first (c : Dev nD) (t : Fin cfg0.N) (h0 : t.val % 32 = 0) (r : Fin 2048) :
    (outsAt0 m c t.val t.isLt).2 (ix1 r) = Cert.Spec.upTo (halfDist m c (rowOf t.val t.isLt r)) 0 := by
  refine (congrFun (scratch_A m c t h0 (by omega)) (ix1 r)).trans ?_
  refine (Payload.pay2_apply (iblk m c 0 t) (iblk m c 1 t) (iblk m c 3 t) (k0_pay1 (F := Ideal)) r).trans ?_
  rw [Payload.pay1_apply r, Cert.Spec.upTo_zero]
  exact congrArg (min ⊤) (tile_eq m c t r 0 (by norm_num) h0 (iblk m c 0 t) (iblk m c 1 t) (iblk m c 3 t) rfl rfl rfl)

/-- THE INVARIANT: after grid point `n` the scratch holds, row by row, the infimum of the half-distances over the bank
    entries seen so far in this row tile. -/
theorem scratch_eq (c : Dev nD) : ∀ (n : ℕ) (hn : n < cfg0.N) (r : Fin 2048),
    (outsAt0 m c n hn).2 (ix1 r) = Cert.Spec.upTo (halfDist m c (rowOf n hn r)) (n % 32) := by
  intro n
  induction n with
  | zero => intro hn r; exact scratch_first m c ⟨0, hn⟩ rfl r
  | succ k ih =>
    intro hn r
    have hN : k + 1 < 128 := lt_of_lt_of_eq hn (show cfg0.N = 128 from N_0)
    by_cases h0 : (k + 1) % 32 = 0
    · rw [h0]; exact scratch_first m c ⟨k + 1, hn⟩ h0 r
    · have hk : k < cfg0.N := Nat.lt_of_succ_lt hn
      have step : (outsAt0 m c (k + 1) hn).2 = k0_pay2 (iblk m c 0 ⟨k + 1, hn⟩) (iblk m c 1 ⟨k + 1, hn⟩) (iblk m c 3 ⟨k + 1, hn⟩)
          (outsAt0 m c k hk).2 := by
        by_cases h1 : (k + 1) % 32 = 31
        · exact scratch_C m c ⟨k + 1, hn⟩ h0 h1
        · exact scratch_B m c ⟨k + 1, hn⟩ h0 h1
      have em : (k + 1) % 32 = k % 32 + 1 := by omega
      have hj : k % 32 + 1 < 32 := by omega
      have erow : rowOf k hk r = rowOf (k + 1) hn r := Fin.ext (by
        show 2048 * (k / 32) + r.val = 2048 * ((k + 1) / 32) + r.val; omega)
      refine (congrFun step (ix1 r)).trans ?_
      refine (Payload.pay2_apply (iblk m c 0 ⟨k + 1, hn⟩) (iblk m c 1 ⟨k + 1, hn⟩) (iblk m c 3 ⟨k + 1, hn⟩) (outsAt0 m c k hk).2 r).trans ?_
      rw [ih hk r, erow, em, Cert.Spec.upTo_succ _ _ hj]
      exact congrArg (min _) (tile_eq m c ⟨k + 1, hn⟩ r (k % 32 + 1) hj em (iblk m c 0 ⟨k + 1, hn⟩) (iblk m c 1 ⟨k + 1, hn⟩)
        (iblk m c 3 ⟨k + 1, hn⟩) rfl rfl rfl)

/-! ## The array written back -/

/-- The distance of row `n` to its nearest bank entry, as the kernel computes it. -/
def outRow (c : Dev nD) (n : Fin 8192) : EReal :=
  Cert.Spec.dist (normArr m c (ix1 n)) (Finset.univ.inf (halfDist m c n))

/-- The kernel's result array. -/
def outArr (c : Dev nD) : S8192.Idx → EReal := fun y => outRow m c (y 0)

/-- What the last bank tile's grid point writes back is its block of `outArr`. -/
theorem flushed_eq (c : Dev nD) (t : Fin cfg0.N) (hf : (cfg0.win 4).flush t = true) :
    (dats m 0 c).flushed 4 t = ((cfg0.win 4).blk t).view.read (Elt Ideal) (outArr m c) := by
  have h1 : t.val % 32 = 31 := (flush0_4 t).mp hf
  have h0 : ¬t.val % 32 = 0 := by omega
  show (cfg0.win 4).cut (grid0.coords t) ((dats m 0 c).after 4 t) = _
  rw [after0_4, out_C_eq m c t h0 h1]
  funext y
  obtain ⟨r, rfl⟩ : ∃ r : Fin 2048, y = ix1 r := ⟨y 0, eq_ix1 y⟩
  show k0_pay3 (iblk m c 2 t) (outsAt0 m c t.val t.isLt).2 (ix1 r) = outArr m c (((cfg0.win 4).blk t).view.emb (ix1 r))
  refine (Payload.pay3_apply (iblk m c 2 t) (outsAt0 m c t.val t.isLt).2 r).trans ?_
  rw [scratch_eq m c t.val t.isLt r, h1, Cert.Spec.upTo_last, Blocks.blk2_apply m c t r (rowOf t.val t.isLt r) rfl]
  have e : ((cfg0.win 4).blk t).view.emb (ix1 r) = ix1 (rowOf t.val t.isLt r) := funext fun a => Fin.ext (by
    obtain ⟨-, -, -, -, -, -, -, e4⟩ := Blocks.idx_facts t
    match a with
    | ⟨0, _⟩ => show win0_4.index t (0 : Fin 1) * 2048 + 1 * r.val = 2048 * (t.val / 32) + r.val; rw [e4]; omega)
  rw [e]
  rfl

/-- An index of the result array is in a grid point's block when it lies in the block's range of rows. -/
theorem mem_blk (t : Fin cfg0.N) (i : S8192.Idx) :
    i ∈ ((cfg0.win 4).blk t).view.set ↔ ∀ a : Fin 1, win0_4.index t a * S2048.size a ≤ (i a).val
      ∧ (i a).val < win0_4.index t a * S2048.size a + S2048.size a := by
  show i ∈ ((View.whole main_v9).slice (win0_4.rect t)).set ↔ _
  rw [View.set_slice_whole, Rect.mem_set_unit]
  exact Iff.rfl

/-- The four written blocks tile the result array. -/
theorem cover (i : S8192.Idx) : ∃ t : Fin cfg0.N, (cfg0.win 4).flush t = true ∧ i ∈ ((cfg0.win 4).blk t).view.set := by
  have hi : (i 0).val < 8192 := (i 0).isLt
  have hN : cfg0.N = 128 := N_0
  have ht : 32 * ((i 0).val / 2048) + 31 < cfg0.N := by omega
  refine ⟨⟨32 * ((i 0).val / 2048) + 31, ht⟩, (flush0_4 _).mpr (by show (32 * ((i 0).val / 2048) + 31) % 32 = 31; omega), ?_⟩
  rw [mem_blk]
  intro a
  obtain ⟨-, -, -, -, -, -, -, e4⟩ := Blocks.idx_facts ⟨32 * ((i 0).val / 2048) + 31, ht⟩
  match a with
  | ⟨0, _⟩ =>
    show win0_4.index ⟨32 * ((i 0).val / 2048) + 31, ht⟩ (0 : Fin 1) * 2048 ≤ (i 0).val
      ∧ (i 0).val < win0_4.index ⟨32 * ((i 0).val / 2048) + 31, ht⟩ (0 : Fin 1) * 2048 + 2048
    rw [e4]
    show (32 * ((i 0).val / 2048) + 31) / 32 * 2048 ≤ (i 0).val ∧ (i 0).val < (32 * ((i 0).val / 2048) + 31) / 32 * 2048 + 2048
    omega

/-- The result array after the region. -/
theorem final (c : Dev nD) : (dats m 0 c).arrAt 4 cfg0.N = outArr m c :=
  (dats m 0 c).arrAt_eq_of_cover 4 (outArr m c) (flushed_eq m c) cover

end Cert.KernelIdeal.Accum

end
-- ==== Proof.HostSide.lean ====
/-
  The host operations around the kernel.

  Before it: the patches and the bank narrowed to bf16 (no change on the extended reals), the squared row norms of the
  patches, and the halved squared row norms of the bank laid out as one row. After it: the maximum of the kernel's
  result array. So the program's result is the maximum, over the rows, of the kernel's nearest-neighbour distances.
-/
import proofs.«140508_j2585570312716_2_alg».proof.Proof.Accum
import proofs.«140508_j2585570312716_2_alg».proof.Proof.Gen.ReferenceIdeal.Read
import Idealize.ShloMosaic.Lib.StableHlo.Run

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The narrowed patches are the patches. -/
theorem patch_eq (c : Dev nD) : Accum.patchArr m c = m ((c : Thread nD τ).loc main_arg0) := by
  unfold Accum.patchArr
  show StableHlo.after hostOps0 (fun b => m (c, b)) (Proc.devRef .tc main_v7) = _
  after_results
  rfl

/-- The narrowed bank is the bank. -/
theorem bank_eq (c : Dev nD) : Accum.bankArr m c = m ((c : Thread nD τ).loc main_arg1) := by
  unfold Accum.bankArr
  show StableHlo.after hostOps0 (fun b => m (c, b)) (Proc.devRef .tc main_v8) = _
  after_results
  rfl

/-- The row norms handed to the kernel are the reference's. -/
theorem norm_eq (c : Dev nD) :
    Accum.normArr m c = Cert.ReferenceIdeal.Read.val_main_v1 (F := Ideal) (m ((c : Thread nD τ).loc main_arg0)) := by
  unfold Accum.normArr
  show StableHlo.after hostOps0 (fun b => m (c, b)) (Proc.devRef .tc main_v1) = _
  after_results
  rfl

/-- The halved bank norms handed to the kernel: one half of the reference's bank norms. -/
theorem half_eq (c : Dev nD) (k : Fin 32768) :
    Accum.halfArr m c (ix2 0 k)
      = Ideal.ofBits .f32 0x3F000000#32 * Cert.ReferenceIdeal.Read.val_main_v3 (F := Ideal) (m ((c : Thread nD τ).loc main_arg1)) (ix1 k) := by
  have e : Accum.halfArr m c
      = mulf (F := Ideal) (broadcastInDim S1x32768 ![] Facts₀.bcast_S_S1x32768 (constant (F := Ideal) S_ .f32 0x3F000000#32))
          (Cert.ReferenceIdeal.Read.val_main_v6 (F := Ideal) (m ((c : Thread nD τ).loc main_arg1))) := by
    unfold Accum.halfArr
    show StableHlo.after hostOps0 (fun b => m (c, b)) (Proc.devRef .tc main_v6) = _
    after_results
    rfl
  rw [e]
  refine (mulf_apply _ _ (ix2 0 k)).trans ?_
  rw [Cert.ReferenceIdeal.Read.val_main_v6_apply]
  refine congrArg₂ (· * ·) rfl (congrArg _ (funext fun a => Fin.ext ?_))
  match a with
  | ⟨0, _⟩ => rfl

/-- The program's result: the maximum over the kernel's result array. -/
def score (c : Dev nD) : S_.Idx → EReal :=
  Host.reduce (FloatOps.maximumf (F := Ideal) (φ := .f32)) (Accum.outArr m c) (constant (F := Ideal) S_ .f32 0xFF800000#32)
    Facts₀.reducesTo_S8192_S_d0 Facts₀.h_S_

theorem result_eq (c : Dev nD) :
    Pipeline.afterTail₀ cfgs (dats m) 0 (V0 m) [hostOps1] c main_v10 = score m c := by
  unfold Pipeline.afterTail₀ score
  show StableHlo.after hostOps1 _ (Proc.devRef .tc main_v10) = _
  after_results
  have e : Pipeline.withArrays (cfgs 0).spec c (V0 m c) (fun w => (dats m 0 c).arrAt w (cfgs 0).N) (Proc.tc.devRef main_v9)
      = Accum.outArr m c :=
    (Pipeline.withArrays_arr spec0 launch0.win.arr_inj c _ _ 4).trans (Accum.final m c)
  rw [e]

/-- The kernel program's run: it ends with the score in its result and its arguments unchanged. -/
theorem run : θ_run defs (onTc (τ := τ) (main (F := Ideal))) ⟨m, fun _ => 0, ρ⟩ fun r => ∀ c : Dev nD,
      r.2.mem ((c.tc : Thread nD τ).loc main_v10) = score m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HostSide

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.RefSide.lean ====
/-
  The reference, read at a row.

  For row n of the patches the reference takes, over all bank entries k, the minimum of
  sqrt(max((p(n) + s(k)) - 2 c(n, k), 0)), with p and s the squared row norms of the patches and of the bank and
  c(n, k) the inner product of row n and bank entry k. The norms are real numbers as soon as the entries are.
-/
import proofs.«140508_j2585570312716_2_alg».proof.Proof.Gen.ReferenceIdeal.Read
import proofs.«140508_j2585570312716_2_alg».proof.Proof.LibRowMin
import proofs.«140508_j2585570312716_2_alg».proof.Proof.LibRealSums
import proofs.«140508_j2585570312716_2_alg».proof.Proof.Spec

set_option maxRecDepth 16384

noncomputable section

namespace Cert.ReferenceIdeal.RefSide

open Idealize.ShloMosaic Idealize.ShloMosaic.ValueIdx
open Cert.ReferenceIdeal Cert.ReferenceIdeal.Read Cert.LibRealSums

variable (X : (⟨S8192x512, .f32⟩ : BufTy).Contents (Elt Ideal)) (Y : (⟨S32768x512, .f32⟩ : BufTy).Contents (Elt Ideal))

theorem idx_row (n : Fin 8192) (k : Fin 32768) : idx_main_v5 (idx_main_v7 (ix2 n k)) = ix1 n :=
  funext fun a => Fin.ext (by match a with | ⟨0, _⟩ => rfl)
theorem idx_bank (n : Fin 8192) (k : Fin 32768) : idx_main_v6 (idx_main_v8 (ix2 n k)) = ix1 k :=
  funext fun a => Fin.ext (by match a with | ⟨0, _⟩ => rfl)
theorem idx_lhs (n : Fin 8192) (k : Fin 32768) (c : Fin 512) : lidx_main_v4 (ix2 n k) c = ix2 n c :=
  funext fun a => Fin.ext (by match a with | ⟨0, _⟩ => rfl | ⟨1, _⟩ => rfl)
theorem idx_rhs (n : Fin 8192) (k : Fin 32768) (c : Fin 512) : ridx_main_v4 (ix2 n k) c = ix2 k c :=
  funext fun a => Fin.ext (by match a with | ⟨0, _⟩ => rfl | ⟨1, _⟩ => rfl)

/-- The distance of row `n` to bank entry `k`. -/
theorem dist_entry (n : Fin 8192) (k : Fin 32768) :
    val_main_v15 (F := Ideal) X Y (ix2 n k)
      = Ideal.sqrt (max ((val_main_v1 (F := Ideal) X (ix1 n) + val_main_v3 (F := Ideal) Y (ix1 k))
          - Ideal.ofBits .f32 0x40000000#32 * ∑ c : Fin 512, X (ix2 n c) * Y (ix2 k c)) (Ideal.ofBits .f32 0x00000000#32)) := by
  rw [val_main_v15_apply, val_main_v14_apply, val_main_v12_apply, val_main_v9_apply, val_main_v7_apply, val_main_v5_apply,
    val_main_v8_apply, val_main_v6_apply, val_main_v11_apply, val_main_v10_apply, val_main_cst_1_apply, val_main_v4_apply,
    val_main_v13_apply, val_main_cst_2_apply, idx_row, idx_bank]
  simp only [idx_lhs, idx_rhs, Ideal.hostUnary_sqrt_def, Ideal.maximumf_def, Ideal.subf_def, Ideal.addf_def,
    Ideal.mulf_def, Ideal.ofBits_def]

/-- The reference's nearest-neighbour distance of row `n`: the infimum over the bank. -/
theorem nearest (n : Fin 8192) :
    val_main_v16 (F := Ideal) X Y (ix1 n) = Finset.univ.inf fun k : Fin 32768 => val_main_v15 (F := Ideal) X Y (ix2 n k) := by
  unfold val_main_v16
  refine (Cert.LibRowMin.hostReduce_minimumf_inf _ _ Facts₀.reducesTo_S8192x32768_S8192_d1 (by decide) Facts₀.h_S_ (ix1 n)
    Cert.Spec.top_word).trans ?_
  exact Finset.inf_congr rfl fun k _ => congrArg _ (Cert.LibRowMin.lift_row _ n k)

/-- Squared row norms of real entries are real numbers. -/
theorem real_norm0 (hX : ∀ i, IsReal (X i)) (n : Fin 8192) : IsReal (val_main_v1 (F := Ideal) X (ix1 n)) := by
  rw [val_main_v1_apply]
  refine isReal_add isReal_ofBits_zero (isReal_sum _ _ fun k _ => ?_)
  rw [val_main_v0_apply]
  exact isReal_mul (hX _) (hX _)

theorem real_norm1 (hY : ∀ i, IsReal (Y i)) (k : Fin 32768) : IsReal (val_main_v3 (F := Ideal) Y (ix1 k)) := by
  rw [val_main_v3_apply]
  refine isReal_add isReal_ofBits_zero (isReal_sum _ _ fun c _ => ?_)
  rw [val_main_v2_apply]
  exact isReal_mul (hY _) (hY _)

/-- Inner products of real entries are real numbers. -/
theorem real_cross (hX : ∀ i, IsReal (X i)) (hY : ∀ i, IsReal (Y i)) (n : Fin 8192) (k : Fin 32768) :
    IsReal (∑ c : Fin 512, X (ix2 n c) * Y (ix2 k c)) :=
  isReal_sum _ _ fun c _ => isReal_mul (hX _) (hY _)

end Cert.ReferenceIdeal.RefSide

end
-- ==== Proof.Bridge.lean ====
/-
  The two programs compute one number.

  Row by row the kernel's result is sqrt(max(p + 2 inf_k (s_k / 2 - c_k), 0)) and the reference's is
  inf_k sqrt(max((p + s_k) - 2 c_k, 0)). With real entries p, s_k and c_k are real numbers: the map
  x ↦ sqrt(max(p + 2x, 0)) goes inside the infimum, and entry by entry p + 2 (s_k / 2 - c_k) = (p + s_k) - 2 c_k.
  Both programs then take the maximum over the rows.
-/
import proofs.«140508_j2585570312716_2_alg».proof.Proof.HostSide
import proofs.«140508_j2585570312716_2_alg».proof.Proof.RefSide

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.LibRealSums
open Cert.ReferenceIdeal.Read (val_main_v1 val_main_v3 val_main_v15 val_main_v16 val_main_v17)

variable (m : (ℓ : Loc nD τ sig) → Buf (Elt Ideal) ℓ)

/-- The kernel's half-distance over the program's arguments `X` (the patches) and `Y` (the bank). -/
theorem halfDist_eq (c : Dev nD) (n : Fin 8192) (k : Fin 32768) (X : S8192x512.Idx → EReal) (Y : S32768x512.Idx → EReal)
    (eX : X = m ((c : Thread nD τ).loc main_arg0)) (eY : Y = m ((c : Thread nD τ).loc main_arg1)) :
    Accum.halfDist m c n k
      = Ideal.ofBits .f32 0x3F000000#32 * val_main_v3 (F := Ideal) Y (ix1 k) - ∑ cc : Fin 512, X (ix2 n cc) * Y (ix2 k cc) := by
  subst eX eY
  unfold Accum.halfDist
  rw [HostSide.half_eq, HostSide.patch_eq, HostSide.bank_eq]

/-- Row by row the kernel's nearest-neighbour distance is the reference's. -/
theorem outRow_eq (c : Dev nD) (n : Fin 8192) (X : S8192x512.Idx → EReal) (Y : S32768x512.Idx → EReal)
    (eX : X = m ((c : Thread nD τ).loc main_arg0)) (eY : Y = m ((c : Thread nD τ).loc main_arg1))
    (hX : ∀ i, IsReal (X i)) (hY : ∀ i, IsReal (Y i)) :
    Accum.outRow m c n = val_main_v16 (F := Ideal) X Y (ix1 n) := by
  unfold Accum.outRow
  rw [HostSide.norm_eq, ← eX]
  obtain ⟨p, hp⟩ := Cert.ReferenceIdeal.RefSide.real_norm0 X hX n
  rw [hp, Cert.Spec.dist_inf p Finset.univ (Accum.halfDist m c n), Cert.ReferenceIdeal.RefSide.nearest]
  refine Finset.inf_congr rfl fun k _ => ?_
  rw [halfDist_eq m c n k X Y eX eY, Cert.ReferenceIdeal.RefSide.dist_entry]
  obtain ⟨s, hs⟩ := Cert.ReferenceIdeal.RefSide.real_norm1 Y hY k
  obtain ⟨cr, hcr⟩ := Cert.ReferenceIdeal.RefSide.real_cross X Y hX hY n k
  rw [hp, hs, hcr, Cert.Spec.half_word, Cert.Spec.two_word, Ideal.ofBits_zero_f32]
  exact Cert.Spec.dist_join p s cr

/-- So the two programs' results are equal. -/
theorem score_eq (c : Dev nD) (X : S8192x512.Idx → EReal) (Y : S32768x512.Idx → EReal)
    (eX : X = m ((c : Thread nD τ).loc main_arg0)) (eY : Y = m ((c : Thread nD τ).loc main_arg1))
    (hX : ∀ i, IsReal (X i)) (hY : ∀ i, IsReal (Y i)) :
    HostSide.score m c = val_main_v17 (F := Ideal) X Y := by
  have e : Accum.outArr m c = val_main_v16 (F := Ideal) X Y := by
    funext y
    obtain ⟨n, rfl⟩ : ∃ n : Fin 8192, y = ix1 n := ⟨y 0, eq_ix1 y⟩
    exact outRow_eq m c n X Y eX eY hX hY
  unfold HostSide.score
  rw [e]
  rfl

end Cert.Bridge

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.Finite.lean ====
/-
  The precondition, read entry by entry: both inputs pass the test |x| < +inf everywhere, so every entry of the patches
  and of the bank is a real number.
-/
import proofs.«140508_j2585570312716_2_alg».proof.Pre_finite_inputs
import proofs.«140508_j2585570312716_2_alg».proof.Proof.LibPreDecode
import proofs.«140508_j2585570312716_2_alg».proof.Proof.LibRealSums
import Idealize.ShloMosaic.Lib.Affine
import Idealize.ShloMosaic.Lib.ValueIdx

noncomputable section

namespace Cert.Pre_finite_inputs.Decode

open Idealize.ShloMosaic Cert.Pre_finite_inputs Cert.LibRealSums

variable [Facts]

instance : Subsingleton S_.Idx := ⟨fun a b => funext fun d => d.elim0⟩

/-- Under the precondition every entry of both inputs is a real number. -/
theorem real_of_pre (X : FVec Ideal S8192x512 .f32) (Y : FVec Ideal S32768x512 .f32)
    (h : fn (F := Ideal) X Y = fun _ => 1#1) : (∀ i, IsReal (X i)) ∧ (∀ i, IsReal (Y i)) := by
  have h0 : IntOp.andi
      (Host.reduce IntOp.andi (cmpf .olt (Host.absf X) (broadcastInDim S8192x512 ![] Facts.bcast_S_S8192x512 (constant (F := Ideal) S_ .f32 0x7F800000#32)))
        (constantI S_ 1 1#1) Facts.reducesTo_S8192x512_S_d0_1 Facts.h_S_ ValueIdx.ix0)
      (Host.reduce IntOp.andi (cmpf .olt (Host.absf Y) (broadcastInDim S32768x512 ![] Facts.bcast_S_S32768x512 (constant (F := Ideal) S_ .f32 0x7F800000#32)))
        (constantI S_ 1 1#1) Facts.reducesTo_S32768x512_S_d0_1 Facts.h_S_ ValueIdx.ix0) = 1#1 := congrFun h ValueIdx.ix0
  obtain ⟨h1, h2⟩ := IntOp.andi_eq_one.1 h0
  exact ⟨fun i => Cert.LibPreDecode.all_real X _ (fun _ => rfl) _ _ _ _ h1 i,
    fun i => Cert.LibPreDecode.all_real Y _ (fun _ => rfl) _ _ _ _ h2 i⟩

end Cert.Pre_finite_inputs.Decode

end
-- ==== Proof.lean ====
/-
  The nearest-neighbour image score: for every row of the patches the distance to the nearest entry of the memory
  bank, then the maximum over the rows.

  The kernel walks the bank in 32 tiles of 1024 entries for each of 4 tiles of 2048 rows, keeping per row the running
  minimum of  s_k / 2 - <x, y_k>  (s_k the squared norm of bank entry k), and forms the distance
  sqrt(max(p + 2 min, 0)) once, at the last bank tile (p the row's squared norm). The reference forms
  sqrt(max(p + s_k - 2 <x, y_k>, 0)) for every pair and takes the minimum afterwards. Over the extended reals, with
  every input entry a real number, the two agree: the final map is monotone and keeps the top element, so it commutes
  with the minimum, and the two spellings of the squared distance are equal real numbers.

  The frames of the two kernel programs are the generated frame runs; the reference's frame is its generated run; the
  idealization rewrote nothing.
-/
import proofs.«140508_j2585570312716_2_alg».proof.Defs
import proofs.«140508_j2585570312716_2_alg».proof.Proof.Gen.Kernel
import proofs.«140508_j2585570312716_2_alg».proof.Proof.Gen.Kernel.Skeleton
import proofs.«140508_j2585570312716_2_alg».proof.Proof.Gen.Kernel.Launch
import proofs.«140508_j2585570312716_2_alg».proof.Proof.Gen.Kernel.Points
import proofs.«140508_j2585570312716_2_alg».proof.Proof.Gen.Kernel.Frame
import proofs.«140508_j2585570312716_2_alg».proof.Proof.Gen.KernelIdeal
import proofs.«140508_j2585570312716_2_alg».proof.Proof.Gen.KernelIdeal.Skeleton
import proofs.«140508_j2585570312716_2_alg».proof.Proof.Gen.KernelIdeal.Launch
import proofs.«140508_j2585570312716_2_alg».proof.Proof.Gen.KernelIdeal.Points
import proofs.«140508_j2585570312716_2_alg».proof.Proof.Gen.KernelIdeal.Frame
import proofs.«140508_j2585570312716_2_alg».proof.Proof.Gen.ReferenceIdeal
import proofs.«140508_j2585570312716_2_alg».proof.Proof.Gen.Pre_finite_inputs
import proofs.«140508_j2585570312716_2_alg».proof.Proof.Gen.ReferenceIdeal.Run
import proofs.«140508_j2585570312716_2_alg».proof.Proof.Gen.ReferenceIdeal.Read
import proofs.«140508_j2585570312716_2_alg».proof.Proof.Bridge
import proofs.«140508_j2585570312716_2_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same score: the kernel's by its accumulated minimum, the reference's by its
    run, equal under the precondition that every entry is a real number. -/
theorem algebraic : Cert.algebraic_KernelIdeal_ReferenceIdeal := by
  intro m ρ m' ρ' hpre hagree
  refine ⟨fun c => Cert.KernelIdeal.HostSide.score m c, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hX, hY⟩ := Cert.Pre_finite_inputs.Decode.real_of_pre _ _ (hpre c)
  exact (Cert.Bridge.score_eq m c _ _ rfl rfl hX hY).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
